-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel

variable [Facts]

def fn {F : FTy → Type} [FloatOps F] (main_arg0 : FVec F S256x4096 .f32) (main_arg1 : FVec F S256x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Kernel.lean ====
abbrev S256x4096 : Shape := ⟨2, ![256, 4096]⟩
abbrev S256x4096x100 : Shape := ⟨3, ![256, 4096, 100]⟩
abbrev S32x256 : Shape := ⟨2, ![32, 256]⟩
abbrev S32x256x100 : Shape := ⟨3, ![32, 256, 100]⟩
abbrev S32x256x1 : Shape := ⟨3, ![32, 256, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096x100, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256x100, .f32⟩
  | .local _ .vmem, ⟨5, _⟩ => ⟨S32x256x100, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S32x256_S32x256_0_0 : ∀ a, (![0, 0] : Fin 2 → Nat) a + S32x256.size a ≤ S32x256.size a
  h_S32x256 : 0 < S32x256.numel
  iota_S32x256x100_d2_w32 : S32x256x100.Iotas .tc 32 [2]
  shapeCasts_S32x256_S32x256x1 : S32x256.ShapeCasts S32x256x1
  broadcasts_S32x256x1_S32x256x100 : S32x256x1.Broadcasts S32x256x100
  natLt_1_32 : 1 < 32
  inb_S32x256x100_S32x256x100_0_0_0 : ∀ a, (![0, 0, 0] : Fin 3 → Nat) a + S32x256x100.size a ≤ S32x256x100.size a
  h_S32x256x100 : 0 < S32x256x100.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S256x4096.size a
  hwx0_0 : ∀ i : grid0.Coords, EltTy.bits .f32 = 32 ∨ (Rect.block (s := S256x4096) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S256x4096.size a
  hwx0_1 : ∀ i : grid0.Coords, EltTy.bits .f32 = 32 ∨ (Rect.block (s := S256x4096) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x100.size a ≤ S256x4096x100.size a
  hwx0_2 : ∀ i : grid0.Coords, EltTy.bits .f32 = 32 ∨ (Rect.block (s := S256x4096x100) S32x256x100.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S_ : Shape := ⟨0, ![]⟩
abbrev S256x4096x1 : Shape := ⟨3, ![256, 4096, 1]⟩
abbrev S1x1x100 : Shape := ⟨3, ![1, 1, 100]⟩
abbrev S256x4096x100 : Shape := ⟨3, ![256, 4096, 100]⟩

abbrev nBuf : Space → Nat
  | .hbm => 46
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S_, .f32⟩
  | .hbm, ⟨3, _⟩ => ⟨S256x4096, .f32⟩
  | .hbm, ⟨4, _⟩ => ⟨S256x4096, .f32⟩
  | .hbm, ⟨5, _⟩ => ⟨S256x4096, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S_, .f32⟩
  | .hbm, ⟨12, _⟩ => ⟨S256x4096, .f32⟩
  | .hbm, ⟨13, _⟩ => ⟨S256x4096, .f32⟩
  | .hbm, ⟨14, _⟩ => ⟨S_, .f32⟩
  | .hbm, ⟨15, _⟩ => ⟨S256x4096, .f32⟩
  | .hbm, ⟨16, _⟩ => ⟨S256x4096, .f32⟩
  | .hbm, ⟨17, _⟩ => ⟨S_, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x4096, .i32⟩
  | .hbm, ⟨29, _⟩ => ⟨S256x4096, .i32⟩
  | .hbm, ⟨30, _⟩ => ⟨S_, .i32⟩
  | .hbm, ⟨31, _⟩ => ⟨S256x4096, .i32⟩
  | .hbm, ⟨32, _⟩ => ⟨S256x4096, .i32⟩
  | .hbm, ⟨33, _⟩ => ⟨S_, .f32⟩
  | .hbm, ⟨34, _⟩ => ⟨S256x4096, .f32⟩
  | .hbm, ⟨35, _⟩ => ⟨S256x4096, .i1⟩
  | .hbm, ⟨36, _⟩ => ⟨S256x4096x1, .i32⟩
  | .hbm, ⟨37, _⟩ => ⟨S1x1x100, .i32⟩
  | .hbm, ⟨38, _⟩ => ⟨S256x4096x100, .i32⟩
  | .hbm, ⟨39, _⟩ => ⟨S256x4096x100, .i32⟩
  | .hbm, ⟨40, _⟩ => ⟨S256x4096x100, .i1⟩
  | .hbm, ⟨41, _⟩ => ⟨S256x4096x100, .f32⟩
  | .hbm, ⟨42, _⟩ => ⟨S256x4096x1, .i1⟩
  | .hbm, ⟨43, _⟩ => ⟨S256x4096x1, .f32⟩
  | .hbm, ⟨44, _⟩ => ⟨S256x4096x100, .f32⟩
  | .hbm, ⟨45, _⟩ => ⟨S256x4096x100, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_c_5 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]

class Facts₀ : Prop where
  bcast_S_S256x4096 : S_.BroadcastsInDim S256x4096 (![] : Fin 0 → Fin S256x4096.rank)
  bcast_S256x4096_S256x4096x1_0_1 : S256x4096.BroadcastsInDim S256x4096x1 (![0, 1] : Fin 2 → Fin S256x4096x1.rank)
  bcast_S256x4096x1_S256x4096x100_0_1_2 : S256x4096x1.BroadcastsInDim S256x4096x100 (![0, 1, 2] : Fin 3 → Fin S256x4096x100.rank)
  bcast_S1x1x100_S256x4096x100_0_1_2 : S1x1x100.BroadcastsInDim S256x4096x100 (![0, 1, 2] : Fin 3 → Fin S256x4096x100.rank)

variable [Facts₀]

class Facts : Prop extends Facts₀ where

variable [Facts]
-- ==== Proof.SpikeSpec.lean ====
/-
  Latency coding of a noisy sigmoid rate, as ONE function of the two argument arrays.

  For a batch row `b` and a feature `f`, with `z = x[b,f] + noise[b,f] · 0.01` and the rate `s = 1 / (1 + e^(-z))`:
    * the latency is `ℓ = clip (round_even (0 + (1 - s) · 99)) 0 99`, an integer in `0 … 99`;
    * the entry fires iff `s > 0.5`;
    * the result at `(b, f, k)` is `[k = ℓ] · [s > 0.5]`: a one-hot row along the time axis, zeroed where the
      entry does not fire.
  Everything is pointwise in `(b, f)`; the time coordinate `k` only enters the comparison with `ℓ`. The float
  literals are kept as their words: both programs carry the same ones, so none is ever evaluated, except the word
  of `1.0` (the host spells the sigmoid's two ones by it) and the zero word.

  Three scalar identities join the two programs' spellings of this formula at the extended reals:
    * `host_rate`: `1 / (1 + exp (-z))`, in the host's quotient, exponential and negation, is the sigmoid;
    * `onehot_word`: the bit `[a = b]` converted to a float is the choice between the words of `1.0` and `0.0`
      on the bit `[b = a]`;
    * `bit_word`: a one-bit word converted unsigned is its zero-extension to 32 bits converted signed.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SpikeSpec

/-! ## The entry's formula -/

/-- The firing rate: the sigmoid of the input plus a hundredth of the noise. -/
def rate (x n : Ideal .f32) : Ideal .f32 :=
  FloatOps.logistic (FloatOps.addf x (FloatOps.mulf n (FloatOps.ofBits .f32 0x3C23D70A#32)))

/-- The latency of a rate `s`: `0 + (1 - s) · 99` rounded to the nearest integer, ties to even, clipped to `0 … 99`. -/
def latency (s : Ideal .f32) : BitVec 32 :=
  IntOp.minsi 99#32 (IntOp.maxsi 0#32 (FloatOps.fptosi 32 (FloatOps.roundeven
    (FloatOps.addf (FloatOps.ofBits .f32 0x00000000#32)
      (FloatOps.mulf (FloatOps.subf (FloatOps.ofBits .f32 0x3F800000#32) s) (FloatOps.ofBits .f32 0x42C60000#32))))))

/-- Whether the entry fires: the rate exceeds one half. -/
def fires (s : Ideal .f32) : BitVec 1 := FloatOps.cmpf .ogt s (FloatOps.ofBits .f32 0x3F000000#32)

/-- The result at time step `k` of an entry with input `x` and noise `n`: one at the entry's latency, zero at every
    other step, times the firing bit. -/
def spike (x n : Ideal .f32) (k : Nat) : Ideal .f32 :=
  FloatOps.mulf
    (Scalar.select (IntOp.cmpi .eq (BitVec.ofNat 32 k) (latency (rate x n)))
      (FloatOps.ofBits .f32 0x3F800000#32 : Ideal .f32) (FloatOps.ofBits .f32 0x00000000#32))
    (FloatOps.sitofp .f32 ((fires (rate x n)).setWidth 32))

/-! ## The whole array -/

/-- The `(b, f)` entry an index `(b, f, k)` of the result depends on. -/
abbrev entry (i : (⟨3, ![256, 4096, 100]⟩ : Shape).Idx) : (⟨2, ![256, 4096]⟩ : Shape).Idx :=
  ix2 (⟨(i 0).val, (i 0).isLt⟩ : Fin 256) (⟨(i 1).val, (i 1).isLt⟩ : Fin 4096)

/-- THE RESULT: the spike train of every entry, index by index. -/
def spikes (x n : (⟨2, ![256, 4096]⟩ : Shape).Idx → Ideal .f32) : (⟨3, ![256, 4096, 100]⟩ : Shape).Idx → Ideal .f32 :=
  fun i => spike (x (entry i)) (n (entry i)) (i 2).val

/-! ## The two spellings agree, scalar by scalar -/

/-- The word `0x3F800000` is the real one. -/
theorem one_word : Ideal.ofBits .f32 0x3F800000#32 = 1 := by
  simp [Ideal.ofBits, Ideal.ieee, -EReal.coe_mul]; norm_num

/-- The host's expansion of the sigmoid — one over one plus the exponential of the negation — is the sigmoid. -/
theorem host_rate (z : Ideal .f32) :
    FloatOps.hostDivf (FloatOps.ofBits .f32 0x3F800000#32 : Ideal .f32)
        (FloatOps.addf (FloatOps.ofBits .f32 0x3F800000#32) (FloatOps.hostUnary .exp (FloatOps.hostNegf z)))
      = FloatOps.logistic z := by
  show Ideal.div (Ideal.ofBits .f32 0x3F800000#32) (Ideal.ofBits .f32 0x3F800000#32 + Ideal.exp (-z)) = Ideal.div 1 (1 + Ideal.exp (-z))
  rw [one_word]

/-- The equality bit of two words, converted to a float, is `1.0` or `0.0` chosen on the bit of the swapped equality. -/
theorem onehot_word (a b : BitVec 32) :
    (FloatOps.uitofp .f32 (IntOp.cmpi .eq a b) : Ideal .f32)
      = Scalar.select (IntOp.cmpi .eq b a) (FloatOps.ofBits .f32 0x3F800000#32 : Ideal .f32) (FloatOps.ofBits .f32 0x00000000#32) := by
  by_cases h : a = b
  · subst h
    have e : IntOp.cmpi .eq a a = 1#1 := by simp [IntOp.cmpi]
    rw [e, select_one]
    show (((1#1 : BitVec 1).toNat : ℝ) : EReal) = Ideal.ofBits .f32 0x3F800000#32
    rw [one_word]; simp
  · have hab : (a == b) = false := beq_eq_false_iff_ne.mpr h
    have hba : (b == a) = false := beq_eq_false_iff_ne.mpr (Ne.symm h)
    have e : IntOp.cmpi .eq a b = 0#1 := by simp [IntOp.cmpi, hab]
    have e' : IntOp.cmpi .eq b a = 0#1 := by simp [IntOp.cmpi, hba]
    rw [e, e', select_zero]
    show (((0#1 : BitVec 1).toNat : ℝ) : EReal) = Ideal.ofBits .f32 0x00000000#32
    rw [Ideal.ofBits_zero_f32]; simp

/-- A one-bit word read unsigned is its zero-extension to 32 bits read signed. -/
theorem bit_word (b : BitVec 1) :
    (FloatOps.uitofp .f32 b : Ideal .f32) = FloatOps.sitofp .f32 (b.setWidth 32) := by
  show ((b.toNat : ℝ) : EReal) = (((b.setWidth 32).toInt : ℝ) : EReal)
  rcases BitVec.eq_zero_or_eq_one b with rfl | rfl <;> simp

end Cert.SpikeSpec

end
-- ==== Proof.RefSpikes.lean ====
/-
  The reference computes `SpikeSpec.spikes`.

  Its host program is straight-line: the noisy input, the sigmoid spelt as `1 / (1 + exp (-z))`, the latency
  (`0 + (1 - s) · 99`, rounded to even, converted, clipped by a maximum with 0 and a minimum with 99), the firing bit,
  a one-hot row `[ℓ = k]` along a new last axis converted to a float, and the product with the firing bit broadcast
  along that axis. Read one operation at a time at an index `(b, f, k)`, every stage depends on the arguments only
  at the entry `(b, f)`; what is left are the three scalar identities of the specification.
-/
import proofs.«108939_j44092134260941_2_alg».proof.Proof.Gen.ReferenceIdeal.Read
import proofs.«108939_j44092134260941_2_alg».proof.Proof.SpikeSpec
import Idealize.ShloMosaic.Lib.ValueIdx

noncomputable section

open Idealize.ShloMosaic Idealize.ShloMosaic.ValueIdx

namespace Cert.ReferenceIdeal.RefSpikes

open Cert.ReferenceIdeal Cert.ReferenceIdeal.Read Cert.SpikeSpec

variable (x n : (⟨S256x4096, .f32⟩ : BufTy).Contents (Elt Ideal))

/-- The one-hot row's two broadcasts (a new unit axis, then along it) read the latency at the entry `(b, f)`. -/
theorem entry_latency (i : S256x4096x100.Idx) : idx_main_call2_v0 (idx_main_call2_v2 i) = entry i :=
  funext fun a => Fin.ext (by match a with | ⟨0, _⟩ => rfl | ⟨1, _⟩ => rfl)

/-- So do the firing bit's two broadcasts. -/
theorem entry_fires (i : S256x4096x100.Idx) : idx_main_v21 (idx_main_v23 i) = entry i :=
  funext fun a => Fin.ext (by match a with | ⟨0, _⟩ => rfl | ⟨1, _⟩ => rfl)

/-- The host's quotient `1 / (1 + exp (-(x + n · 0.01)))` at an entry is the entry's rate. -/
theorem rate_at (j : S256x4096.Idx) : val_main_v8 (F := Ideal) x n j = rate (x j) (n j) := by
  rw [val_main_v8_apply, val_main_v7_apply, val_main_cst_1_apply, val_main_v6_apply, val_main_v5_apply,
    val_main_cst_0_apply, val_main_v4_apply, val_main_v3_apply, val_main_v2_apply, val_main_v1_apply, val_main_v0_apply,
    val_main_cst_apply]
  exact host_rate _

/-- The clipped, rounded `0 + (1 - s) · 99` at an entry is the latency of the entry's rate. -/
theorem latency_at (j : S256x4096.Idx) : val_main_v17 (F := Ideal) x n j = latency (rate (x j) (n j)) := by
  rw [val_main_v17_apply, val_main_call1_v4_apply, val_main_call1_v3_apply, val_main_c_5_apply, val_main_call1_v2_apply,
    val_main_call1_v1_apply, val_main_call1_v0_apply, val_main_c_apply, val_main_v16_apply, val_main_v15_apply,
    val_main_v14_apply, val_main_v13_apply, val_main_cst_4_apply, val_main_v12_apply, val_main_v11_apply,
    val_main_cst_3_apply, val_main_v10_apply, val_main_v9_apply, val_main_cst_2_apply, rate_at]
  rfl

/-- The comparison with one half at an entry is the firing bit of the entry's rate. -/
theorem fires_at (j : S256x4096.Idx) : val_main_v19 (F := Ideal) x n j = fires (rate (x j) (n j)) := by
  rw [val_main_v19_apply, val_main_v18_apply, val_main_cst_6_apply, rate_at]
  rfl

/-- THE REFERENCE'S RESULT is the spike train of every entry: the one-hot bit `[ℓ = k]` converted to a float is the
    choice of `1.0` or `0.0` on `[k = ℓ]`, and the firing bit converted unsigned is its 32-bit extension converted
    signed. -/
theorem result_eq : val_main_v24 (F := Ideal) x n = spikes x n := by
  funext i
  rw [val_main_v24_apply, val_main_v20_apply, val_main_call2_v4_apply, val_main_call2_v2_apply, val_main_call2_v0_apply,
    val_main_call2_v3_apply, val_main_call2_v1_apply, val_main_v23_apply, val_main_v22_apply, val_main_v21_apply,
    entry_latency, entry_fires, latency_at, fires_at, onehot_word, bit_word]
  rfl

end Cert.ReferenceIdeal.RefSpikes

end
-- ==== Proof.BodySpikes.lean ====
/-
  The kernel body's stored value, read at an index of its block.

  The body loads a `[32, 256]` block of each argument and stores one `[32, 256, 100]` block. The rate, the latency and
  the firing bit are pointwise in the `[32, 256]` block; each then gets a trailing unit axis (a shape cast to
  `[32, 256, 1]`) and is broadcast along it to `[32, 256, 100]`, so at `(p, q, k)` it is read at `(p, q)`; the time step is
  an iota along the last axis, which reads `k`. At `(p, q, k)` the stored value is therefore the entry formula of the
  specification at the block's `(p, q)` entries, with no rewriting of the arithmetic at all.
-/
import proofs.«108939_j44092134260941_2_alg».proof.Proof.Gen.KernelIdeal.Skeleton
import proofs.«108939_j44092134260941_2_alg».proof.Proof.SpikeSpec
import Idealize.ShloMosaic.Lib.ValueIdx
import Idealize.ShloMosaic.Lib.Pipeline.Value

noncomputable section

open Idealize.ShloMosaic Idealize.ShloMosaic.ValueIdx

namespace Cert.KernelIdeal.BodySpikes

open Cert.KernelIdeal Cert.KernelIdeal.Gen Cert.SpikeSpec

/-- A `[32, 256]` value given a trailing unit axis and broadcast along it reads, at `(p, q, k)`, the value at `(p, q)`:
    the broadcast reads `(p, q, 0)`, which has the row-major position `p · 256 + q` of `(p, q)`. -/
theorem column_read {α : Type} (v : S32x256.Idx → α) (h1 : S32x256.ShapeCasts S32x256x1) (h2 : S32x256x1.Broadcasts S32x256x100)
    (p : Fin 32) (q : Fin 256) (k : Fin 100) :
    broadcastTo S32x256x100 (shapeCast S32x256x1 v h1) h2 (ix3 p q k) = v (ix2 p q) := by
  refine (broadcastTo_apply _ h2 (ix3 p q k) (ix3 p q (0 : Fin 1)) fun a => ?_).trans ?_
  · match a with
    | ⟨0, _⟩ => show p.val = if (32 : Nat) = 1 then 0 else p.val; rw [if_neg (by decide)]
    | ⟨1, _⟩ => show q.val = if (256 : Nat) = 1 then 0 else q.val; rw [if_neg (by decide)]
    | ⟨2, _⟩ => show 0 = if (1 : Nat) = 1 then 0 else k.val; rw [if_pos rfl]
  · refine shapeCast_apply v h1 (ix3 p q (0 : Fin 1)) (ix2 p q) ?_
    rw [Shape.rowMajor_val_two, Shape.rowMajor_val_three]
    show p.val * 256 + q.val = (p.val * 256 + q.val) * 1 + 0
    omega

/-- THE STORED VALUE at `(p, q, k)` is the entry formula at the two loaded blocks' `(p, q)` entries. -/
theorem stored_apply (x0 x1 : Vec Ideal S32x256 .f32) (p : Fin 32) (q : Fin 256) (k : Fin 100) :
    k0_pay1 (F := Ideal) x0 x1 (ix3 p q k) = spike (x0 (ix2 p q)) (x1 (ix2 p q)) k.val := by
  unfold k0_pay1
  dsimp only
  show FloatOps.mulf (Scalar.select (IntOp.cmpi .eq (iota .tc S32x256x100 32 [2] _ (ix3 p q k)) (broadcastTo S32x256x100 _ _ (ix3 p q k))) _ _)
      (broadcastTo S32x256x100 _ _ (ix3 p q k)) = _
  rw [column_read, column_read, iota_single_apply]
  rfl

end Cert.KernelIdeal.BodySpikes

end
-- ==== Proof.ArraySpikes.lean ====
/-
  From blocks to the array: after the kernel's run the result array is `SpikeSpec.spikes` of the two argument arrays.

  The grid is `8 × 16`. Point `(i, j)` loads rows `32 i … 32 i + 31` and columns `256 j … 256 j + 255` of each argument,
  and writes back rows `32 i …`, columns `256 j …` and ALL 100 time steps of the result: the two input windows move with
  the output window on the first two axes, and the output's block index on the time axis is always 0. So what point
  `(i, j)` writes back is block `(i, j, 0)` of `spikes` — the stored value at `(p, q, k)` is the entry formula at the input
  blocks' `(p, q)`, which is the arguments' entry `(32 i + p, 256 j + q)`, the entry the array index
  `(32 i + p, 256 j + q, k)` depends on. The blocks tile the array (the block covering `(b, f, k)` is that of the point
  `(b / 32, f / 256)`), hence the whole array is `spikes`.
-/
import proofs.«108939_j44092134260941_2_alg».proof.Proof.Gen.KernelIdeal.Value
import proofs.«108939_j44092134260941_2_alg».proof.Proof.BodySpikes
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.ArraySpikes

open Cert.KernelIdeal Cert.KernelIdeal.Gen Cert.SpikeSpec

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the 128 grid points: both input windows sit at the output window's block on the batch
    and feature axes, the output's block index on the time axis is 0, and the block indices stay below 8 and 16. -/
theorem windows_aligned : ∀ t : Fin cfg0.N,
    win0_0.index t (0 : Fin 2) = win0_2.index t (0 : Fin 3)
    ∧ win0_0.index t (1 : Fin 2) = win0_2.index t (1 : Fin 3)
    ∧ win0_1.index t (0 : Fin 2) = win0_2.index t (0 : Fin 3)
    ∧ win0_1.index t (1 : Fin 2) = win0_2.index t (1 : Fin 3)
    ∧ win0_2.index t (2 : Fin 3) = 0
    ∧ win0_2.index t (0 : Fin 3) ≤ 7
    ∧ win0_2.index t (1 : Fin 3) ≤ 15 :=
  (by decide +kernel : ∀ t : Fin grid0.N, _)

/-- Every block `(i, j, 0)` of the result is some grid point's. -/
theorem block_of_point : ∀ (i : Fin 8) (j : Fin 16), ∃ t : Fin cfg0.N, win0_2.index t = ![i.val, j.val, 0] :=
  (by decide +kernel : ∀ (i : Fin 8) (j : Fin 16), ∃ t : Fin grid0.N, win0_2.index t = ![i.val, j.val, 0])

/-- At a point `t`, the stored value at `y` of the output block is the entry formula at the arguments' entry under
    the array index `y` lands on. -/
theorem stored_at_point (c : Dev nD) (t : Fin cfg0.N) (y : S32x256x100.Idx) :
    k0_pay1 (F := Ideal) (iblk m c 0 t) (iblk m c 1 t) y
      = spikes (V m c main_arg0) (V m c main_arg1) (((cfg0.win 2).blk t).view.emb y) := by
  obtain ⟨p, q, k, rfl⟩ : ∃ (p : Fin 32) (q : Fin 256) (k : Fin 100), y = ix3 p q k := ⟨y 0, y 1, y 2, eq_ix3 y⟩
  refine (BodySpikes.stored_apply (iblk m c 0 t) (iblk m c 1 t) p q k).trans ?_
  obtain ⟨e00, e01, e10, e11, e22, -, -⟩ := windows_aligned t
  have h0 : ((cfg0.win 0).blk t).view.emb (ix2 p q) = entry (((cfg0.win 2).blk t).view.emb (ix3 p q k)) := by
    funext a; apply Fin.ext
    match a with
    | ⟨0, _⟩ => show win0_0.index t (0 : Fin 2) * 32 + 1 * p.val = win0_2.index t (0 : Fin 3) * 32 + 1 * p.val; omega
    | ⟨1, _⟩ => show win0_0.index t (1 : Fin 2) * 256 + 1 * q.val = win0_2.index t (1 : Fin 3) * 256 + 1 * q.val; omega
  have h1 : ((cfg0.win 1).blk t).view.emb (ix2 p q) = entry (((cfg0.win 2).blk t).view.emb (ix3 p q k)) := by
    funext a; apply Fin.ext
    match a with
    | ⟨0, _⟩ => show win0_1.index t (0 : Fin 2) * 32 + 1 * p.val = win0_2.index t (0 : Fin 3) * 32 + 1 * p.val; omega
    | ⟨1, _⟩ => show win0_1.index t (1 : Fin 2) * 256 + 1 * q.val = win0_2.index t (1 : Fin 3) * 256 + 1 * q.val; omega
  have hk : k.val = ((((cfg0.win 2).blk t).view.emb (ix3 p q k)) 2).val := by
    show k.val = win0_2.index t (2 : Fin 3) * 100 + 1 * k.val
    omega
  show spike (V m c main_arg0 (((cfg0.win 0).blk t).view.emb (ix2 p q))) (V m c main_arg1 (((cfg0.win 1).blk t).view.emb (ix2 p q))) k.val
    = spike (V m c main_arg0 (entry (((cfg0.win 2).blk t).view.emb (ix3 p q k)))) (V m c main_arg1 (entry (((cfg0.win 2).blk t).view.emb (ix3 p q k))))
        ((((cfg0.win 2).blk t).view.emb (ix3 p q k)) 2).val
  rw [h0, h1, ← hk]

/-- WHAT POINT `t` WRITES BACK is block `t` of `spikes` of the argument arrays. -/
theorem flushed_spikes (c : Dev nD) (t : Fin cfg0.N) :
    (dats m 0 c).flushed 2 t = ((cfg0.win 2).blk t).view.read (Elt Ideal) (spikes (V m c main_arg0) (V m c main_arg1)) := by
  rw [Value.flushed2]
  unfold out0_2
  rw [View.canon_unit_zero zero3]
  simp only [View.ld_unit_zero (S := S32x256) zero2]
  funext y
  exact stored_at_point m c t y

/-- An index of the result is in point `t`'s block iff each coordinate is in the block's range on its axis. -/
theorem mem_block (t : Fin cfg0.N) (i : S256x4096x100.Idx) :
    i ∈ ((cfg0.win 2).blk t).view.set ↔ ∀ a : Fin 3, win0_2.index t a * S32x256x100.size a ≤ (i a).val ∧ (i a).val < win0_2.index t a * S32x256x100.size a + S32x256x100.size a := by
  show i ∈ ((View.whole main_v0).slice (win0_2.rect t)).set ↔ _
  rw [View.set_slice_whole, Rect.mem_set_unit]
  exact Iff.rfl

/-- THE BLOCKS TILE THE RESULT: `(b, f, k)` lies in the block of the point at `(b / 32, f / 256)`. -/
theorem covered (i : S256x4096x100.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  have hi2 : (i 2).val < 100 := (i 2).isLt
  obtain ⟨t, ht⟩ := block_of_point ⟨(i 0).val / 32, by omega⟩ ⟨(i 1).val / 256, by omega⟩
  have q0 : win0_2.index t (0 : Fin 3) = (i 0).val / 32 := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 100 ≤ (i 2).val ∧ (i 2).val < win0_2.index t (2 : Fin 3) * 100 + 100; omega

/-- THE RESULT ARRAY after the run is `spikes` of the argument arrays as launched. -/
theorem final_spikes (c : Dev nD) :
    (dats m 0 c).arrAt 2 cfg0.N = spikes (m ((c : Thread nD τ).loc main_arg0)) (m ((c : Thread nD τ).loc main_arg1)) :=
  (dats m 0 c).arrAt_eq_of_cover 2 (spikes (V m c main_arg0) (V m c main_arg1)) (fun t _ => flushed_spikes m c t) covered

/-- The kernel's run, read: the result array at `spikes` of the arguments, the arguments unchanged. -/
theorem run : θ_run defs (onTc (τ := τ) (main (F := Ideal))) ⟨m, fun _ => 0, ρ⟩ fun r => ∀ c : Dev nD,
      r.2.mem ((c : Thread nD τ).loc main_v0) = spikes (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_spikes m c), (h c).2⟩) (Value.run_blocks m ρ)

end Cert.KernelIdeal.ArraySpikes

end
-- ==== Proof.lean ====
/-
  A spike-latency encoder and its reference compute the same array over the extended reals.

  For inputs `x, noise : f32[256, 4096]` both programs form, entry by entry, the rate
  `s = sigmoid (x + noise · 0.01)`, the latency `ℓ = clip (round_even (0 + (1 - s) · 99)) 0 99` and the firing bit
  `[s > 0.5]`, and return `out[b, f, k] = [k = ℓ] · [s > 0.5]` over `k < 100` (`SpikeSpec.spikes`).
    * The kernel does it on `[32, 256]` blocks over an `8 × 16` grid, comparing an iota along the time axis with the
      latency broadcast along it; its blocks tile the result (`ArraySpikes.run`).
    * The reference does it on whole arrays, with the sigmoid spelt `1 / (1 + exp (-z))` and the one-hot row as a
      converted equality bit (`RefSpikes.result_eq`).
  The two differ only in spelling — the sigmoid against its expansion, `select m 1.0 0.0` against the converted bit, a
  sign-converted zero-extension against an unsigned conversion — so no property of the inputs is used: the
  equality holds at every extended real, and the precondition is never opened. The float literals are the same
  words on both sides.

  The three programs' runs (termination, no fault, arguments unchanged) are the kernel's frame theorems and the
  reference's run with its result dropped; the idealized kernel is the printed kernel read at the extended reals
  with no rewrite applied, so there is nothing to preserve.
-/
import proofs.«108939_j44092134260941_2_alg».proof.Defs
import proofs.«108939_j44092134260941_2_alg».proof.Proof.Gen.Kernel
import proofs.«108939_j44092134260941_2_alg».proof.Proof.Gen.Kernel.Skeleton
import proofs.«108939_j44092134260941_2_alg».proof.Proof.Gen.Kernel.Launch
import proofs.«108939_j44092134260941_2_alg».proof.Proof.Gen.Kernel.Points
import proofs.«108939_j44092134260941_2_alg».proof.Proof.Gen.Kernel.Frame
import proofs.«108939_j44092134260941_2_alg».proof.Proof.Gen.KernelIdeal
import proofs.«108939_j44092134260941_2_alg».proof.Proof.Gen.KernelIdeal.Skeleton
import proofs.«108939_j44092134260941_2_alg».proof.Proof.Gen.KernelIdeal.Launch
import proofs.«108939_j44092134260941_2_alg».proof.Proof.Gen.KernelIdeal.Points
import proofs.«108939_j44092134260941_2_alg».proof.Proof.Gen.KernelIdeal.Frame
import proofs.«108939_j44092134260941_2_alg».proof.Proof.Gen.ReferenceIdeal
import proofs.«108939_j44092134260941_2_alg».proof.Proof.Gen.Pre_finite_inputs
import proofs.«108939_j44092134260941_2_alg».proof.Proof.Gen.KernelIdeal.Value
import proofs.«108939_j44092134260941_2_alg».proof.Proof.Gen.ReferenceIdeal.Run
import proofs.«108939_j44092134260941_2_alg».proof.Proof.Gen.ReferenceIdeal.Read
import proofs.«108939_j44092134260941_2_alg».proof.Proof.SpikeSpec
import proofs.«108939_j44092134260941_2_alg».proof.Proof.RefSpikes
import proofs.«108939_j44092134260941_2_alg».proof.Proof.ArraySpikes
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on `x` and `noise`, the kernel's result array and the reference's are both the spike
    trains `SpikeSpec.spikes x noise`. -/
theorem algebraic : Cert.algebraic_KernelIdeal_ReferenceIdeal := by
  intro m ρ m' ρ' _ hagree
  refine ⟨fun c => Cert.SpikeSpec.spikes (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArraySpikes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefSpikes.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
